-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : IVec S2048 32) (main_arg2 : FVec F S4096x2048 .f32) (main_arg3 : IVec S4096 32) (main_arg4 : IVec S4096x2048 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S4096x2048 : Shape := ⟨2, ![4096, 2048]⟩
abbrev S2048 : Shape := ⟨1, ![2048]⟩
abbrev S4096 : Shape := ⟨1, ![4096]⟩
abbrev S_ : Shape := ⟨0, ![]⟩
abbrev S1x2048 : Shape := ⟨2, ![1, 2048]⟩
abbrev S8192x4096 : Shape := ⟨2, ![8192, 4096]⟩
abbrev S4096x1 : Shape := ⟨2, ![4096, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S2048x4096 : Shape := ⟨2, ![2048, 4096]⟩
abbrev S2048x1 : Shape := ⟨2, ![2048, 1]⟩
abbrev S1024x1024 : Shape := ⟨2, ![1024, 1024]⟩

abbrev nBuf : Space → Nat
  | .hbm => 73
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048, .i32⟩
  | .hbm, ⟨2, _⟩ => ⟨S4096x2048, .f32⟩
  | .hbm, ⟨3, _⟩ => ⟨S4096, .i32⟩
  | .hbm, ⟨4, _⟩ => ⟨S4096x2048, .i32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S1x2048, .i32⟩
  | .hbm, ⟨28, _⟩ => ⟨S4096x2048, .i32⟩
  | .hbm, ⟨29, _⟩ => ⟨S4096x2048, .i32⟩
  | .hbm, ⟨30, _⟩ => ⟨S_, .f32⟩
  | .hbm, ⟨31, _⟩ => ⟨S8192x4096, .f32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i1⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x2048, .i32⟩
  | .hbm, ⟨42, _⟩ => ⟨S4096x2048, .i1⟩
  | .hbm, ⟨43, _⟩ => ⟨S_, .i32⟩
  | .hbm, ⟨44, _⟩ => ⟨S4096x2048, .i32⟩
  | .hbm, ⟨45, _⟩ => ⟨S4096x2048, .i32⟩
  | .hbm, ⟨46, _⟩ => ⟨S4096x2048, .i32⟩
  | .hbm, ⟨47, _⟩ => ⟨S4096x2048, .i32⟩
  | .hbm, ⟨48, _⟩ => ⟨S4096x2048x1, .i32⟩
  | .hbm, ⟨49, _⟩ => ⟨S4096x2048x1, .i32⟩
  | .hbm, ⟨50, _⟩ => ⟨S4096x2048x2, .i32⟩
  | .hbm, ⟨51, _⟩ => ⟨S8192x4096, .f32⟩
  | .hbm, ⟨52, _⟩ => ⟨S_, .i32⟩
  | .hbm, ⟨53, _⟩ => ⟨S_, .i32⟩
  | .hbm, ⟨54, _⟩ => ⟨S2048, .i32⟩
  | .hbm, ⟨55, _⟩ => ⟨S_, .i32⟩
  | .hbm, ⟨56, _⟩ => ⟨S_, .f32⟩
  | .hbm, ⟨57, _⟩ => ⟨S4096x2048, .f32⟩
  | .hbm, ⟨58, _⟩ => ⟨S_, .f32⟩
  | .hbm, ⟨59, _⟩ => ⟨S4096x4096, .f32⟩
  | .hbm, ⟨60, _⟩ => ⟨S2048x4096, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S4096x4096, .f32⟩
  | .hbm, ⟨70, _⟩ => ⟨S8192x4096, .bf16⟩
  | .hbm, ⟨71, _⟩ => ⟨S4096x4096, .bf16⟩
  | .hbm, ⟨72, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_call1_v0 : Ref sig .tc := ⟨.hbm, 53, rfl⟩
abbrev main_v24 : Ref sig .tc := ⟨.hbm, 54, rfl⟩
abbrev main_c_6 : Ref sig .tc := ⟨.hbm, 55, rfl⟩
abbrev main_call2_v0 : Ref sig .tc := ⟨.hbm, 56, rfl⟩
abbrev main_v25 : Ref sig .tc := ⟨.hbm, 57, rfl⟩
abbrev main_cst_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_c_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S8192x4096 : S_.BroadcastsInDim S8192x4096 (![] : Fin 0 → Fin S8192x4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  pads_S2048_S2048_000 : S2048.Pads (![0] : Fin 1 → Nat) ![0] ![0] S2048
  h_S_ : 0 < S_.numel
  pads_S4096x2048_S4096x2048_000_000 : S4096x2048.Pads (![0, 0] : Fin 2 → Nat) ![0, 0] ![0, 0] S4096x2048
  bcast_S_S4096x4096 : S_.BroadcastsInDim S4096x4096 (![] : Fin 0 → Fin S4096x4096.rank)
  transposes_S4096x2048_S2048x4096_1_0 : S4096x2048.Transposes [1, 0] S2048x4096
  bcast_S2048_S2048x1_0 : S2048.BroadcastsInDim S2048x1 (![0] : Fin 1 → Fin S2048x1.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S8192x4096_S4096x2048x2_S4096x2048_n_01_01_2_wf : ScatterDims.WF S8192x4096 S4096x2048x2 S4096x2048 [] [0, 1] [0, 1] 2
  scatter_S4096x4096_S2048x1_S2048x4096_1_0_0_1_wf : ScatterDims.WF S4096x4096 S2048x1 S2048x4096 [1] [0] [0] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def scatter_S8192x4096_S4096x2048x2_S4096x2048_n_01_01_2 : ScatterDims S8192x4096 S4096x2048x2 S4096x2048 where
  updateWindowDims := []
  insertedWindowDims := [0, 1]
  scatterDimsToOperandDims := [0, 1]
  indexVectorDim := 2
  wf := scatter_S8192x4096_S4096x2048x2_S4096x2048_n_01_01_2_wf
def scatter_S4096x4096_S2048x1_S2048x4096_1_0_0_1 : ScatterDims S4096x4096 S2048x1 S2048x4096 where
  updateWindowDims := [1]
  insertedWindowDims := [0]
  scatterDimsToOperandDims := [0]
  indexVectorDim := 1
  wf := scatter_S4096x4096_S2048x1_S2048x4096_1_0_0_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v35) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048 : Shape := ⟨1, ![2048]⟩
abbrev S4096 : Shape := ⟨1, ![4096]⟩
abbrev S_ : Shape := ⟨0, ![]⟩
abbrev S1x2048 : Shape := ⟨2, ![1, 2048]⟩
abbrev S8192x4096 : Shape := ⟨2, ![8192, 4096]⟩
abbrev S4096x1 : Shape := ⟨2, ![4096, 1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S2048x4096 : Shape := ⟨2, ![2048, 4096]⟩
abbrev S2048x1 : Shape := ⟨2, ![2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .i32⟩
  | .hbm, ⟨2, _⟩ => ⟨S4096x2048, .f32⟩
  | .hbm, ⟨3, _⟩ => ⟨S4096, .i32⟩
  | .hbm, ⟨4, _⟩ => ⟨S4096x2048, .i32⟩
  | .hbm, ⟨5, _⟩ => ⟨S2048, .i32⟩
  | .hbm, ⟨6, _⟩ => ⟨S_, .i32⟩
  | .hbm, ⟨7, _⟩ => ⟨S_, .i32⟩
  | .hbm, ⟨8, _⟩ => ⟨S2048, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i1⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i1⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S1x2048, .i32⟩
  | .hbm, ⟨28, _⟩ => ⟨S4096x2048, .i32⟩
  | .hbm, ⟨29, _⟩ => ⟨S4096x2048, .i32⟩
  | .hbm, ⟨30, _⟩ => ⟨S_, .f32⟩
  | .hbm, ⟨31, _⟩ => ⟨S8192x4096, .f32⟩
  | .hbm, ⟨32, _⟩ => ⟨S4096x1, .i32⟩
  | .hbm, ⟨33, _⟩ => ⟨S_, .i32⟩
  | .hbm, ⟨34, _⟩ => ⟨S4096x1, .i32⟩
  | .hbm, ⟨35, _⟩ => ⟨S4096x1, .i1⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x2048, .i32⟩
  | .hbm, ⟨42, _⟩ => ⟨S4096x2048, .i1⟩
  | .hbm, ⟨43, _⟩ => ⟨S_, .i32⟩
  | .hbm, ⟨44, _⟩ => ⟨S4096x2048, .i32⟩
  | .hbm, ⟨45, _⟩ => ⟨S4096x2048, .i32⟩
  | .hbm, ⟨46, _⟩ => ⟨S4096x2048, .i32⟩
  | .hbm, ⟨47, _⟩ => ⟨S4096x2048, .i32⟩
  | .hbm, ⟨48, _⟩ => ⟨S4096x2048x1, .i32⟩
  | .hbm, ⟨49, _⟩ => ⟨S4096x2048x1, .i32⟩
  | .hbm, ⟨50, _⟩ => ⟨S4096x2048x2, .i32⟩
  | .hbm, ⟨51, _⟩ => ⟨S8192x4096, .f32⟩
  | .hbm, ⟨52, _⟩ => ⟨S_, .i32⟩
  | .hbm, ⟨53, _⟩ => ⟨S_, .i32⟩
  | .hbm, ⟨54, _⟩ => ⟨S2048, .i32⟩
  | .hbm, ⟨55, _⟩ => ⟨S_, .i32⟩
  | .hbm, ⟨56, _⟩ => ⟨S_, .f32⟩
  | .hbm, ⟨57, _⟩ => ⟨S4096x2048, .f32⟩
  | .hbm, ⟨58, _⟩ => ⟨S_, .f32⟩
  | .hbm, ⟨59, _⟩ => ⟨S4096x4096, .f32⟩
  | .hbm, ⟨60, _⟩ => ⟨S2048x4096, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S4096x4096, .f32⟩
  | .hbm, ⟨70, _⟩ => ⟨S8192x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_c_1 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_5 : Ref sig .tc := ⟨.hbm, 52, rfl⟩
abbrev main_call1_v0 : Ref sig .tc := ⟨.hbm, 53, rfl⟩
abbrev main_v24 : Ref sig .tc := ⟨.hbm, 54, rfl⟩
abbrev main_c_6 : Ref sig .tc := ⟨.hbm, 55, rfl⟩
abbrev main_call2_v0 : Ref sig .tc := ⟨.hbm, 56, rfl⟩
abbrev main_v25 : Ref sig .tc := ⟨.hbm, 57, rfl⟩
abbrev main_cst_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_c_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S8192x4096 : S_.BroadcastsInDim S8192x4096 (![] : Fin 0 → Fin S8192x4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  pads_S2048_S2048_000 : S2048.Pads (![0] : Fin 1 → Nat) ![0] ![0] S2048
  h_S_ : 0 < S_.numel
  pads_S4096x2048_S4096x2048_000_000 : S4096x2048.Pads (![0, 0] : Fin 2 → Nat) ![0, 0] ![0, 0] S4096x2048
  bcast_S_S4096x4096 : S_.BroadcastsInDim S4096x4096 (![] : Fin 0 → Fin S4096x4096.rank)
  transposes_S4096x2048_S2048x4096_1_0 : S4096x2048.Transposes [1, 0] S2048x4096
  bcast_S2048_S2048x1_0 : S2048.BroadcastsInDim S2048x1 (![0] : Fin 1 → Fin S2048x1.rank)
  scatter_S8192x4096_S4096x2048x2_S4096x2048_n_01_01_2_wf : ScatterDims.WF S8192x4096 S4096x2048x2 S4096x2048 [] [0, 1] [0, 1] 2
  scatter_S4096x4096_S2048x1_S2048x4096_1_0_0_1_wf : ScatterDims.WF S4096x4096 S2048x1 S2048x4096 [1] [0] [0] 1
  dot_S8192x4096_S4096x4096_S8192x4096_1_0_0_1_n_n_wf : DotDims.WF S8192x4096 S4096x4096 S8192x4096 [1] [0] [0] [1] [] []

variable [Facts₀]

def scatter_S8192x4096_S4096x2048x2_S4096x2048_n_01_01_2 : ScatterDims S8192x4096 S4096x2048x2 S4096x2048 where
  updateWindowDims := []
  insertedWindowDims := [0, 1]
  scatterDimsToOperandDims := [0, 1]
  indexVectorDim := 2
  wf := scatter_S8192x4096_S4096x2048x2_S4096x2048_n_01_01_2_wf
def scatter_S4096x4096_S2048x1_S2048x4096_1_0_0_1 : ScatterDims S4096x4096 S2048x1 S2048x4096 where
  updateWindowDims := [1]
  insertedWindowDims := [0]
  scatterDimsToOperandDims := [0]
  indexVectorDim := 1
  wf := scatter_S4096x4096_S2048x1_S2048x4096_1_0_0_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KPieces.lean ====
/-
  What one grid point of the blocked matrix product leaves behind, as pure terms.

  The body keeps a 1024 x 1024 accumulator across the four points (kk = 0 .. 3) that share an output block. Writing
  `step acc a b` for `acc + a * b` (the matrix product of the two 1024 x 1024 input blocks added entrywise to `acc`),
  and `zero` for the all-zero block:
    * at kk = 0 the accumulator is first overwritten with `zero`, so the point leaves `step zero a b`;
    * at kk = 1, 2 it leaves `step acc a b` over what the point before left;
    * at kk = 3 it leaves the same `step acc a b`, and copies it to the output block.
  Each statement holds for any interpretation of the float operations.
-/
import proofs.«172750_j17051020165438_1_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The origin of a block, as a function of the axis. -/
theorem origin : (![0, 0] : Fin 2 → Nat) = fun _ => 0 := funext fun a => by fin_cases a <;> rfl

/-- The all-zero accumulator block. -/
abbrev zero : Vec F S1024x1024 .f32 := k0_pay1

/-- One accumulation: `acc` plus the product of the two input blocks. -/
abbrev step (acc : Vec F S1024x1024 .f32) (a b : Vec F S1024x1024 .bf16) : Vec F S1024x1024 .f32 := k0_pay2 acc a b

/-- A middle point (kk = 1, 2) leaves `acc + a * b` in the accumulator: its one store covers the whole block, and its
    three loads read whole buffers. -/
theorem acc_mid (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 : Vec F S1024x1024 .bf16) (xs0 : Vec F S1024x1024 .f32) :
    sout0_B_0 c i a3 h3 a4 h4 a5 h5 a6 h6 hc0 hc1 x0 x1 xs0 = step xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero origin]
  simp only [View.readAt_eq_ld, h3.read_unread, h4.read_unread, h6.read_unread, View.ld_unit_zero (S := S1024x1024) origin]

/-- The last point (kk = 3) leaves `acc + a * b` in the accumulator. -/
theorem acc_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    sout0_C_0 c i a3 h3 a4 h4 a5 h5 a6 h6 hc0 hc1 x0 x1 xs0 = step xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero origin]
  simp only [View.readAt_eq_ld, h3.read_unread, h4.read_unread, h6.read_unread, View.ld_unit_zero (S := S1024x1024) origin]

/-- … and the output block it writes is that same accumulator: the value stored to the output is the accumulator
    read back after its own store. -/
theorem out_last (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 : Vec F S1024x1024 .bf16) (xs0 : Vec F S1024x1024 .f32) :
    out0_C_2 c i a3 h3 a4 h4 a5 h5 a6 h6 hc0 hc1 x0 x1 xs0 = step xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero origin, View.readCov_unit_zero (S := S1024x1024) _ origin]
  simp only [View.readAt_eq_ld, h3.read_unread, h4.read_unread, h6.read_unread, View.ld_unit_zero (S := S1024x1024) origin]

/-- The first point (kk = 0) stores the zero block, reads it back, and leaves `zero + a * b`. -/
theorem acc_first (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .bf16) :
    sout0_A_0 c i a3 h3 a4 h4 a5 h5 a6 h6 hc0 hc1 x0 x1 = step zero x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

end Cert.KernelIdeal.Body

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.KStep.lean ====
/-
  One accumulation step, entry by entry, on the extended reals.

  With exact arithmetic the all-zero block is 0 at every entry, and `step acc a b` at entry (p, q) is
      acc (p, q) + sum over k < 1024 of a (p, k) * b (k, q):
  the product's own accumulator is the zero block and contributes nothing, and reshaping a block to its own shape
  changes nothing.
-/
import proofs.«172750_j17051020165438_1_alg».proof.Proof.KPieces
import proofs.«172750_j17051020165438_1_alg».proof.Proof.LibPlainDot

set_option maxRecDepth 16384

noncomputable section

namespace Cert.KernelIdeal.Body

open Cert.KernelIdeal Cert.KernelIdeal.Gen Idealize.ShloMosaic Idealize.ShloMosaic.ValueIdx

/-- The all-zero block is 0 at every entry. -/
theorem zero_apply (y : S1024x1024.Idx) : (zero : Vec Ideal S1024x1024 .f32) y = 0 := by
  unfold zero k0_pay1
  simp only [shapeCast_self, broadcast_apply]
  exact Ideal.ofBits_zero_f32

/-- One step at entry (p, q): the old entry plus the row-by-column sum of products of the two input blocks. -/
theorem step_apply (acc : Vec Ideal S1024x1024 .f32) (a b : Vec Ideal S1024x1024 .bf16) (p q : Fin 1024) :
    step acc a b (ix2 p q) = acc (ix2 p q) + ∑ k : Fin 1024, a (ix2 p k) * b (ix2 k q) := by
  unfold step k0_pay2
  simp only [shapeCast_self]
  exact congrArg (acc (ix2 p q) + ·)
    (PlainDot.matmul_zero_apply dot_S1024x1024_S1024x1024_S1024x1024_1_0_0_1_n_n rfl rfl rfl rfl rfl rfl rfl rfl none a b p q)

end Cert.KernelIdeal.Body

end
-- ==== Proof.KFold.lean ====
/-
  The output block written at the last of the four points that share it.

  Points are numbered t = 16 i + 4 j + kk. The four points 4u, 4u+1, 4u+2, 4u+3 share output block (i, j) and input
  blocks (i, kk) of the left matrix and (kk, j) of the right one. Write P n (p, q) for the product term of point n,
      P n (p, q) = sum over k < 1024 of  a_n (p, k) * b_n (k, q),
  where a_n, b_n are the two input blocks of point n. The accumulator is reset to zero at 4u and every point adds its
  own product term, so after point 4u + 3 it holds, entry by entry,
      0 + (P (4u) + P (4u+1) + P (4u+2) + P (4u+3)),
  and that point copies it to the output block. All arithmetic is exact.
-/
import proofs.«172750_j17051020165438_1_alg».proof.Proof.KStep
import proofs.«172750_j17051020165438_1_alg».proof.Proof.Gen.KernelIdeal.Value

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The left input block of point `t`, as a 1024 x 1024 block. -/
abbrev lblk (c : Dev nD) (t : Fin cfg0.N) : Vec Ideal S1024x1024 .bf16 := iblk m c 0 t
/-- The right input block of point `t`. -/
abbrev rblk (c : Dev nD) (t : Fin cfg0.N) : Vec Ideal S1024x1024 .bf16 := iblk m c 1 t

/-- The product term of point `n` at block entry `y` (0 past the grid, where it is never used). -/
def prodAt (c : Dev nD) (n : ℕ) (y : S1024x1024.Idx) : EReal :=
  if h : n < cfg0.N then ∑ k : Fin 1024, lblk m c ⟨n, h⟩ (ix2 (y 0) k) * rblk m c ⟨n, h⟩ (ix2 k (y 1)) else 0

/-- At the first of four points the accumulator is left at `zero + a * b`, whatever it held. -/
theorem scratch_first (c : Dev nD) (n : ℕ) (hb : n < cfg0.N) (h0 : n % 4 = 0) (acc : Vec Ideal S1024x1024 .f32) :
    Value.scAt0_0 m c n hb acc = step zero (lblk m c ⟨n, hb⟩) (rblk m c ⟨n, hb⟩) := by
  unfold Value.scAt0_0
  rw [dif_pos h0, dif_neg (by omega)]
  exact acc_first ..

/-- At the other three it is left at `acc + a * b`. -/
theorem scratch_next (c : Dev nD) (n : ℕ) (hb : n < cfg0.N) (h0 : ¬n % 4 = 0) (acc : Vec Ideal S1024x1024 .f32) :
    Value.scAt0_0 m c n hb acc = step acc (lblk m c ⟨n, hb⟩) (rblk m c ⟨n, hb⟩) := by
  unfold Value.scAt0_0
  rw [dif_neg h0]
  split
  · exact acc_last ..
  · exact acc_mid ..

/-- One step at entry `y`, with the point's product term named. -/
theorem step_prodAt (c : Dev nD) (n : ℕ) (hb : n < cfg0.N) (acc : Vec Ideal S1024x1024 .f32) (y : S1024x1024.Idx) :
    step acc (lblk m c ⟨n, hb⟩) (rblk m c ⟨n, hb⟩) y = acc y + prodAt m c n y := by
  obtain ⟨p, q, rfl⟩ : ∃ (p q : Fin 1024), y = ix2 p q := ⟨y 0, y 1, eq_ix2 y⟩
  unfold prodAt
  rw [dif_pos hb]
  exact step_apply acc (lblk m c ⟨n, hb⟩) (rblk m c ⟨n, hb⟩) p q

/-- The accumulator after the j-th point of a run of four (j = 0 .. 3) that starts at point b = 4u. -/
theorem scratch_fold (c : Dev nD) (b : ℕ) (hb4 : b % 4 = 0) (j : ℕ) (hj : j ≤ 3) (h : b + j < cfg0.N) (y : S1024x1024.Idx) :
    Pipeline.accAt (fun n h => Value.scAt0_0 m c n h (VS0_0.read (Elt Ideal) VS0_0.junk)) (Value.scAt0_0 m c) b j h y
      = 0 + ∑ s ∈ Finset.range (j + 1), prodAt m c (b + s) y :=
  Pipeline.accAt_add_apply (fun n h => Value.scAt0_0 m c n h (VS0_0.read (Elt Ideal) VS0_0.junk)) (Value.scAt0_0 m c)
    (fun _ => (0 : EReal)) (prodAt m c) b 3
    (fun h i => by
      show Value.scAt0_0 m c b h _ i = 0 + prodAt m c b i
      rw [scratch_first m c b h hb4, step_prodAt m c b h zero i, zero_apply])
    (fun n h acc i hlt hle => by
      rw [scratch_next m c n h (by omega) acc, step_prodAt m c n h acc i])
    j hj h y

/-- At the last of four points the output block is the accumulator. -/
theorem out_eq_scratch (c : Dev nD) (t : Fin cfg0.N) (h3 : t.val % 4 = 3) :
    (outsAt0 m c t.val t.isLt).1 = (outsAt0 m c t.val t.isLt).2 := by
  rw [outsAt0_C m c t (by omega) h3]
  dsimp only
  rw [out_last, acc_last]

/-- So the output block written at point t = 4u + 3 is, entry by entry, zero plus the four product terms. -/
theorem out_at_last (c : Dev nD) (t : Fin cfg0.N) (h3 : t.val % 4 = 3) (y : S1024x1024.Idx) :
    (outsAt0 m c t.val t.isLt).1 y = 0 + ∑ s ∈ Finset.range 4, prodAt m c (4 * (t.val / 4) + s) y := by
  rw [out_eq_scratch m c t h3, Value.soutsAt0_0_eq m c t]
  have key := scratch_fold m c (4 * (t.val / 4)) (by omega) (t.val % 4) (by omega)
    (by have h1 := t.isLt; have h2 := Nat.div_add_mod t.val 4; omega) y
  have e : Finset.range 4 = Finset.range (t.val % 4 + 1) := by rw [h3]
  rw [e]
  exact key

end Cert.KernelIdeal.Body

end
-- ==== Proof.KBlocks.lean ====
/-
  Where the blocks sit in the arrays.

  Grid point t = 16 i + 4 j + kk works on block (i, kk) of the left matrix, block (kk, j) of the right matrix and
  block (i, j) of the result, all blocks 1024 x 1024. So entry (p, k) of the left block is entry
  (1024 i + p, 1024 kk + k) of the left matrix, and entry (k, q) of the right block is entry (1024 kk + k, 1024 j + q)
  of the right matrix, with i = t / 16, j = t / 4 mod 4, kk = t mod 4. The block positions are checked once for all
  128 points; the matrices are the arrays as the region finds them, whatever wrote them.
-/
import proofs.«172750_j17051020165438_1_alg».proof.Proof.Gen.KernelIdeal.Frame
import Idealize.ShloMosaic.Lib.Pipeline.Value
import Idealize.ShloMosaic.Lib.ValueIdx

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block positions of the three windows at every grid point. -/
theorem block_positions : ∀ t : Fin cfg0.N,
    win0_0.index t 0 = t.val / 16 ∧ win0_0.index t 1 = t.val % 4 ∧
    win0_1.index t 0 = t.val % 4 ∧ win0_1.index t 1 = t.val / 4 % 4 ∧
    win0_2.index t 0 = t.val / 16 ∧ win0_2.index t 1 = t.val / 4 % 4 :=
  (by decide +kernel : ∀ t : Fin grid0.N, _)

/-- An entry of the left block is an entry of the left matrix. -/
theorem left_block_apply (c : Dev nD) (t : Fin cfg0.N) (p k : Fin 1024) (r : Fin 8192) (kk : Fin 4096)
    (hr : r.val = 1024 * (t.val / 16) + p.val) (hk : kk.val = 1024 * (t.val % 4) + k.val) :
    (iblk m c 0 t : Vec F S1024x1024 .bf16) (ix2 p k) = (V m c main_v35 : S8192x4096.Idx → Elt F .bf16) (ix2 r kk) := by
  unfold iblk
  rw [View.read_apply]
  show V m c main_v35 _ = V m c main_v35 _
  refine congrArg (V m c main_v35 : S8192x4096.Idx → Elt F .bf16) (funext fun a => Fin.ext ?_)
  match a with
  | ⟨0, _⟩ =>
    show win0_0.index t 0 * 1024 + 1 * p.val = r.val
    rw [(block_positions t).1, hr]; omega
  | ⟨1, _⟩ =>
    show win0_0.index t 1 * 1024 + 1 * k.val = kk.val
    rw [(block_positions t).2.1, hk]; omega

/-- An entry of the right block is an entry of the right matrix. -/
theorem right_block_apply (c : Dev nD) (t : Fin cfg0.N) (k q : Fin 1024) (kk : Fin 4096) (cc : Fin 4096)
    (hk : kk.val = 1024 * (t.val % 4) + k.val) (hc : cc.val = 1024 * (t.val / 4 % 4) + q.val) :
    (iblk m c 1 t : Vec F S1024x1024 .bf16) (ix2 k q) = (V m c main_v36 : S4096x4096.Idx → Elt F .bf16) (ix2 kk cc) := by
  unfold iblk
  rw [View.read_apply]
  show V m c main_v36 _ = V m c main_v36 _
  refine congrArg (V m c main_v36 : S4096x4096.Idx → Elt F .bf16) (funext fun a => Fin.ext ?_)
  match a with
  | ⟨0, _⟩ =>
    show win0_1.index t 0 * 1024 + 1 * k.val = kk.val
    rw [(block_positions t).2.2.1, hk]; omega
  | ⟨1, _⟩ =>
    show win0_1.index t 1 * 1024 + 1 * q.val = cc.val
    rw [(block_positions t).2.2.2.1, hc]; omega

end Cert.KernelIdeal.Body

end
-- ==== Proof.Spec.lean ====
/-
  The specification: the product of an 8192 x 4096 matrix X with a 4096 x 4096 matrix Y, on the extended reals.
  Entry (r, c) of the result is the sum over k < 4096 of X (r, k) * Y (k, c). Both programs are shown to compute this
  one function of the same two matrices.
-/
import Idealize.ShloMosaic.Lib.ValueIdx

namespace Cert.Spec

open Idealize.ShloMosaic Idealize.ShloMosaic.ValueIdx

/-- The whole matrix product, entry by entry. -/
noncomputable def matProd (X : (⟨2, ![8192, 4096]⟩ : Shape).Idx → EReal) (Y : (⟨2, ![4096, 4096]⟩ : Shape).Idx → EReal) :
    (⟨2, ![8192, 4096]⟩ : Shape).Idx → EReal :=
  fun j => ∑ k : Fin 4096, X (ix2 (j 0) k) * Y (ix2 k (j 1))

/-- … at an entry given by its two coordinates. -/
theorem matProd_apply (X : (⟨2, ![8192, 4096]⟩ : Shape).Idx → EReal) (Y : (⟨2, ![4096, 4096]⟩ : Shape).Idx → EReal)
    (r : Fin 8192) (c : Fin 4096) : matProd X Y (ix2 r c) = ∑ k : Fin 4096, X (ix2 r k) * Y (ix2 k c) := rfl

end Cert.Spec
-- ==== Proof.LibBlockSum.lean ====
/-
  Summing in blocks.

  A sum over the indices 0 .. a*b - 1 can be taken b consecutive indices at a time: block s collects the indices
  b*s, b*s + 1, .., b*s + b - 1. Only associativity and commutativity of addition are used, so the statement holds in
  every commutative monoid; on the extended reals it therefore holds whether or not the summands are finite.
-/
import Idealize.ShloMosaic.Lib.ValueIdx

namespace Idealize.ShloMosaic.BlockSum

/-- Index q of block s is a valid index of the whole range. -/
theorem block_index_lt {a b : ℕ} (s : Fin a) (q : Fin b) : b * s.val + q.val < a * b := by
  have hs := s.isLt
  have hq := q.isLt
  calc b * s.val + q.val < b * s.val + b := by omega
    _ = b * (s.val + 1) := by ring
    _ ≤ b * a := Nat.mul_le_mul_left b hs
    _ = a * b := Nat.mul_comm b a

/-- The sum over all a*b indices is the sum over the a blocks of the b indices in each. -/
theorem sum_blocks {M : Type*} [AddCommMonoid M] (a b : ℕ) (g : Fin (a * b) → M) :
    ∑ k : Fin (a * b), g k = ∑ s : Fin a, ∑ q : Fin b, g ⟨b * s.val + q.val, block_index_lt s q⟩ := by
  rw [← Equiv.sum_comp finProdFinEquiv g, Fintype.sum_prod_type]
  refine Finset.sum_congr rfl fun s _ => Finset.sum_congr rfl fun q _ => congrArg g (Fin.ext ?_)
  show q.val + b * s.val = b * s.val + q.val
  omega

end Idealize.ShloMosaic.BlockSum
-- ==== Proof.KEntry.lean ====
/-
  One entry of an output block, against the whole matrix product.

  Take the two matrices as the region finds them. For the point t = 16 i + 4 j + 3 that writes output block (i, j):
  by the fold, entry (p, q) of the block is the sum over the four points 4u + s (u = t / 4, s < 4) of their product
  terms; point 4u + s reads block (i, s) of the left matrix and block (s, j) of the right one, so its product term is
  the part of the row-by-column sum over the indices 1024 s .. 1024 s + 1023; summing in blocks, the four parts are the
  whole sum over k < 4096 at entry (1024 i + p, 1024 j + q).
-/
import proofs.«172750_j17051020165438_1_alg».proof.Proof.KFold
import proofs.«172750_j17051020165438_1_alg».proof.Proof.KBlocks
import proofs.«172750_j17051020165438_1_alg».proof.Proof.Spec
import proofs.«172750_j17051020165438_1_alg».proof.Proof.LibBlockSum

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-- The left matrix as the region finds it. -/
abbrev lmat (c : Dev nD) : S8192x4096.Idx → EReal := V m c main_v35
/-- The right matrix as the region finds it. -/
abbrev rmat (c : Dev nD) : S4096x4096.Idx → EReal := V m c main_v36

/-- The result array's contents: the product of the two. -/
abbrev result (c : Dev nD) : Buf (Elt Ideal) ((c : Thread nD τ).loc main_v37) := matProd (lmat m c) (rmat m c)

/-- Entry (p, q) of the block written at point t = 16 i + 4 j + 3 is entry (1024 i + p, 1024 j + q) of the product. -/
theorem out_entry (c : Dev nD) (t : Fin cfg0.N) (h3 : t.val % 4 = 3) (p q : Fin 1024) (r : Fin 8192) (cc : Fin 4096)
    (hr : r.val = 1024 * (t.val / 16) + p.val) (hc : cc.val = 1024 * (t.val / 4 % 4) + q.val) :
    (outsAt0 m c t.val t.isLt).1 (ix2 p q) = matProd (lmat m c) (rmat m c) (ix2 r cc) := by
  have hN : cfg0.N = 128 := N_0
  have ht := t.isLt
  rw [out_at_last m c t h3 (ix2 p q), zero_add, Finset.sum_range, matProd_apply]
  refine Eq.trans ?_ (BlockSum.sum_blocks 4 1024 (fun k' : Fin 4096 => lmat m c (ix2 r k') * rmat m c (ix2 k' cc))).symm
  refine Finset.sum_congr rfl fun s _ => ?_
  have hs := s.isLt
  have hlt : 4 * (t.val / 4) + s.val < cfg0.N := by omega
  unfold prodAt
  rw [dif_pos hlt]
  refine Finset.sum_congr rfl fun k _ => ?_
  have hk := k.isLt
  show lblk m c ⟨4 * (t.val / 4) + s.val, hlt⟩ (ix2 p k) * rblk m c ⟨4 * (t.val / 4) + s.val, hlt⟩ (ix2 k q)
      = lmat m c (ix2 r ⟨1024 * s.val + k.val, BlockSum.block_index_lt s k⟩)
        * rmat m c (ix2 ⟨1024 * s.val + k.val, BlockSum.block_index_lt s k⟩ cc)
  have eL : lblk m c ⟨4 * (t.val / 4) + s.val, hlt⟩ (ix2 p k)
      = lmat m c (ix2 r ⟨1024 * s.val + k.val, BlockSum.block_index_lt s k⟩) :=
    left_block_apply m c ⟨4 * (t.val / 4) + s.val, hlt⟩ p k r ⟨1024 * s.val + k.val, BlockSum.block_index_lt s k⟩
      (by show r.val = 1024 * ((4 * (t.val / 4) + s.val) / 16) + p.val; omega)
      (by show 1024 * s.val + k.val = 1024 * ((4 * (t.val / 4) + s.val) % 4) + k.val; omega)
  have eR : rblk m c ⟨4 * (t.val / 4) + s.val, hlt⟩ (ix2 k q)
      = rmat m c (ix2 ⟨1024 * s.val + k.val, BlockSum.block_index_lt s k⟩ cc) :=
    right_block_apply m c ⟨4 * (t.val / 4) + s.val, hlt⟩ k q ⟨1024 * s.val + k.val, BlockSum.block_index_lt s k⟩ cc
      (by show 1024 * s.val + k.val = 1024 * ((4 * (t.val / 4) + s.val) % 4) + k.val; omega)
      (by show cc.val = 1024 * ((4 * (t.val / 4) + s.val) / 4 % 4) + q.val; omega)
  rw [eL, eR]

end Cert.KernelIdeal.Body

end
-- ==== Proof.KFlush.lean ====
/-
  What a writing point writes back.

  The point t = 16 i + 4 j + 3 writes its whole 1024 x 1024 output block to rows 1024 i .. 1024 i + 1023 and columns
  1024 j .. 1024 j + 1023 of the result array. So if a block agrees, entry (p, q) with entry (1024 i + p, 1024 j + q),
  with some array, then what is written is that array read through the block's rectangle. The block the point holds
  agrees in this way with the product of the two matrices.
-/
import proofs.«172750_j17051020165438_1_alg».proof.Proof.KEntry

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-- A block that agrees entry by entry with an array, at each entry's place in the array, is the array read through
    the block's rectangle. -/
theorem block_eq_read (t : Fin cfg0.N) (G : S8192x4096.Idx → EReal) (X : Vec Ideal S1024x1024 .f32)
    (h : ∀ (p q : Fin 1024) (r : Fin 8192) (cc : Fin 4096), r.val = 1024 * (t.val / 16) + p.val →
      cc.val = 1024 * (t.val / 4 % 4) + q.val → X (ix2 p q) = G (ix2 r cc)) :
    (cfg0.win 2).cut (grid0.coords t) X = ((cfg0.win 2).blk t).view.read (Elt Ideal) G := by
  have hN : cfg0.N = 128 := N_0
  have ht := t.isLt
  funext y
  rw [View.read_apply]
  have h0 : (y 0).val < 1024 := (y 0).isLt
  have h1 : (y 1).val < 1024 := (y 1).isLt
  have e1 : (cfg0.win 2).xinj (grid0.coords t) y = ix2 (⟨(y 0).val, h0⟩ : Fin 1024) (⟨(y 1).val, h1⟩ : Fin 1024) :=
    funext fun a => by match a with | ⟨0, _⟩ => rfl | ⟨1, _⟩ => rfl
  have e2 : ((cfg0.win 2).blk t).view.emb y
      = ix2 (⟨1024 * (t.val / 16) + (y 0).val, by omega⟩ : Fin 8192) (⟨1024 * (t.val / 4 % 4) + (y 1).val, by omega⟩ : Fin 4096) :=
    funext fun a => Fin.ext (by
      match a with
      | ⟨0, _⟩ => show win0_2.index t 0 * 1024 + 1 * (y 0).val = 1024 * (t.val / 16) + (y 0).val
                  rw [(block_positions t).2.2.2.2.1]; omega
      | ⟨1, _⟩ => show win0_2.index t 1 * 1024 + 1 * (y 1).val = 1024 * (t.val / 4 % 4) + (y 1).val
                  rw [(block_positions t).2.2.2.2.2]; omega)
  show X ((cfg0.win 2).xinj (grid0.coords t) y) = G (((cfg0.win 2).blk t).view.emb y)
  rw [e1, e2]
  exact h _ _ _ _ rfl rfl

/-- What a writing point writes back is its block of the product. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  rw [Value.flushed2]
  exact block_eq_read t (result m c) (outsAt0 m c t.val t.isLt).1
    (fun p q r cc hr hc => out_entry m c t h3 p q r cc hr hc)

end Cert.KernelIdeal.Body

end
-- ==== Proof.KCover.lean ====
/-
  The result array after the kernel's region: the whole matrix product.

  Entry (r, c) of the result array lies in the block written by the point 16 (r / 1024) + 4 (c / 1024) + 3, so the 32
  writing points' blocks cover the array and after the region it holds the product at every entry.
-/
import proofs.«172750_j17051020165438_1_alg».proof.Proof.KFlush

set_option maxRecDepth 16384

noncomputable section

namespace Cert.KernelIdeal.Body

open Cert.KernelIdeal Cert.KernelIdeal.Gen Idealize.ShloMosaic Idealize.ShloMosaic.TcCoe Idealize.ShloMosaic.ValueIdx Idealize.SL.Sem
open Cert.Spec

variable (m : (ℓ : Loc nD τ sig) → Buf (Elt Ideal) ℓ) (ρ : Dev nD → PrngReg)

/-- Every entry of the result array lies in the block of a writing point. -/
theorem cover (i : S8192x4096.Idx) : ∃ t : Fin cfg0.N, (cfg0.win 2).flush t = true ∧ i ∈ ((cfg0.win 2).blk t).view.set := by
  have hN : cfg0.N = 128 := N_0
  have h0 : (i 0 : Nat) < 8192 := (i 0).isLt
  have h1 : (i 1 : Nat) < 4096 := (i 1).isLt
  let t : Fin cfg0.N := ⟨16 * ((i 0 : Nat) / 1024) + 4 * ((i 1 : Nat) / 1024) + 3, by omega⟩
  have htv : t.val = 16 * ((i 0 : Nat) / 1024) + 4 * ((i 1 : Nat) / 1024) + 3 := rfl
  refine ⟨t, (flush0_2 t).mpr (by omega), ?_⟩
  show i ∈ ((View.whole main_v37).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(block_positions t).2.2.2.2.1]; omega
  | ⟨1, _⟩ =>
    show win0_2.index t 1 * 1024 ≤ (i 1 : Nat) ∧ (i 1 : Nat) < win0_2.index t 1 * 1024 + 1024
    rw [(block_positions t).2.2.2.2.2]; omega

/-- So the result array ends holding the product. -/
theorem final (c : Dev nD) : (dats m 0 c).arrAt 2 cfg0.N = result m c :=
  (dats m 0 c).arrAt_eq_of_cover 2 (result m c) (flushed_eq m c) cover

/-- The kernel's run: every execution terminates with the result array at the product of the two matrices the region
    finds, and the arguments unchanged. -/
theorem run : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Body

end
-- ==== Proof.RRun.lean ====
/-
  The reference's run.

  The reference is a straight line of host operations: the operations that build the two matrices W and B from the
  arguments (the helper functions' bodies written out where they are called), then one matrix product of the two.
  Every execution terminates with each buffer at the value the operations compute in order from the launch contents;
  read at the result buffer, that value is the host's product of W and B of the arguments, and the arguments are
  unchanged.
-/
import proofs.«172750_j17051020165438_1_alg».proof.Proof.Gen.ReferenceIdeal
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 66 host operations, in order. -/
abbrev ops : List (HloOp τ sig (Elt F)) :=
  [ StableHlo.nullary main_v0 (iotaInDim S2048 32 0),
    StableHlo.nullary main_c (constantI S_ 32 2#32),
    StableHlo.TRef.unary (.of main_c : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S2048, .i32⟩) (broadcastInDim S2048 ![] bcast_S_S2048),
    StableHlo.TRef.binary (.of main_v0 : StableHlo.TRef sig ⟨S2048, .i32⟩) (.of main_call0_v1 : StableHlo.TRef sig ⟨S2048, .i32⟩) (.of main_call0_v2 : StableHlo.TRef sig ⟨S2048, .i32⟩) Host.divsi,
    StableHlo.TRef.unary (.of main_v0 : StableHlo.TRef sig ⟨S2048, .i32⟩) (.of main_call0_v3 : StableHlo.TRef sig ⟨S2048, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S2048, .i32⟩) (broadcastInDim S2048 ![] bcast_S_S2048),
    StableHlo.TRef.binary (.of main_call0_v3 : StableHlo.TRef sig ⟨S2048, .i32⟩) (.of main_call0_v5 : StableHlo.TRef sig ⟨S2048, .i32⟩) (.of main_call0_v6 : StableHlo.TRef sig ⟨S2048, .i1⟩) (cmpi .ne),
    StableHlo.TRef.unary (.of main_call0_v0 : StableHlo.TRef sig ⟨S_, .i32⟩) (.of main_call0_v7 : StableHlo.TRef sig ⟨S2048, .i32⟩) (broadcastInDim S2048 ![] bcast_S_S2048),
    StableHlo.TRef.binary (.of main_v0 : StableHlo.TRef sig ⟨S2048, .i32⟩) (.of main_call0_v7 : StableHlo.TRef sig ⟨S2048, .i32⟩) (.of main_call0_v8 : StableHlo.TRef sig ⟨S2048, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S2048, .i32⟩) (broadcastInDim S2048 ![] bcast_S_S2048),
    StableHlo.TRef.binary (.of main_call0_v8 : StableHlo.TRef sig ⟨S2048, .i32⟩) (.of main_call0_v9 : StableHlo.TRef sig ⟨S2048, .i32⟩) (.of main_call0_v10 : StableHlo.TRef sig ⟨S2048, .i1⟩) (cmpi .ne),
    StableHlo.TRef.binary (.of main_call0_v6 : StableHlo.TRef sig ⟨S2048, .i1⟩) (.of main_call0_v10 : StableHlo.TRef sig ⟨S2048, .i1⟩) (.of main_call0_v11 : StableHlo.TRef sig ⟨S2048, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S2048, .i32⟩) (broadcastInDim S2048 ![] bcast_S_S2048),
    StableHlo.TRef.binary (.of main_call0_v2 : StableHlo.TRef sig ⟨S2048, .i32⟩) (.of main_call0_v12 : StableHlo.TRef sig ⟨S2048, .i32⟩) (.of main_call0_v13 : StableHlo.TRef sig ⟨S2048, .i32⟩) subi,
    StableHlo.TRef.ternary (.of main_call0_v11 : StableHlo.TRef sig ⟨S2048, .i1⟩) (.of main_call0_v13 : StableHlo.TRef sig ⟨S2048, .i32⟩) (.of main_call0_v2 : StableHlo.TRef sig ⟨S2048, .i32⟩) (.of main_v1 : StableHlo.TRef sig ⟨S2048, .i32⟩) select,
    StableHlo.nullary main_c_0 (constantI S_ 32 4#32),
    StableHlo.unary main_c_0 main_v2 (broadcastInDim S2048 ![] bcast_S_S2048 : (⟨S_, .i32⟩ : BufTy).Contents (Elt F) → (⟨S2048, .i32⟩ : BufTy).Contents (Elt F)),
    StableHlo.binary main_v1 main_v2 main_v3 (muli : (⟨S2048, .i32⟩ : BufTy).Contents (Elt F) → (⟨S2048, .i32⟩ : BufTy).Contents (Elt F) → (⟨S2048, .i32⟩ : BufTy).Contents (Elt F)),
    StableHlo.unary main_v3 main_v4 (broadcastInDim S1x2048 ![1] bcast_S2048_S1x2048_1 : (⟨S2048, .i32⟩ : BufTy).Contents (Elt F) → (⟨S1x2048, .i32⟩ : BufTy).Contents (Elt F)),
    StableHlo.unary main_v4 main_v5 (broadcastInDim S4096x2048 ![0, 1] bcast_S1x2048_S4096x2048_0_1 : (⟨S1x2048, .i32⟩ : BufTy).Contents (Elt F) → (⟨S4096x2048, .i32⟩ : BufTy).Contents (Elt F)),
    StableHlo.binary main_v5 main_arg4 main_v6 (addi : (⟨S4096x2048, .i32⟩ : BufTy).Contents (Elt F) → (⟨S4096x2048, .i32⟩ : BufTy).Contents (Elt F) → (⟨S4096x2048, .i32⟩ : BufTy).Contents (Elt F)),
    StableHlo.nullary main_cst (constant S_ .f32 0x00000000#32),
    StableHlo.unary main_cst main_v7 (broadcastInDim S8192x4096 ![] bcast_S_S8192x4096 : (⟨S_, .f32⟩ : BufTy).Contents (Elt F) → (⟨S8192x4096, .f32⟩ : BufTy).Contents (Elt F)),
    StableHlo.unary main_arg3 main_v8 (broadcastInDim S4096x1 ![0] bcast_S4096_S4096x1_0 : (⟨S4096, .i32⟩ : BufTy).Contents (Elt F) → (⟨S4096x1, .i32⟩ : BufTy).Contents (Elt F)),
    StableHlo.nullary main_c_1 (constantI S_ 32 0#32),
    StableHlo.unary main_c_1 main_v9 (broadcastInDim S4096x1 ![] bcast_S_S4096x1 : (⟨S_, .i32⟩ : BufTy).Contents (Elt F) → (⟨S4096x1, .i32⟩ : BufTy).Contents (Elt F)),
    StableHlo.binary main_v8 main_v9 main_v10 (cmpi .slt : (⟨S4096x1, .i32⟩ : BufTy).Contents (Elt F) → (⟨S4096x1, .i32⟩ : BufTy).Contents (Elt F) → (⟨S4096x1, .i1⟩ : BufTy).Contents (Elt F)),
    StableHlo.nullary main_c_2 (constantI S_ 32 8192#32),
    StableHlo.unary main_c_2 main_v11 (broadcastInDim S4096x1 ![] bcast_S_S4096x1 : (⟨S_, .i32⟩ : BufTy).Contents (Elt F) → (⟨S4096x1, .i32⟩ : BufTy).Contents (Elt F)),
    StableHlo.binary main_v8 main_v11 main_v12 (addi : (⟨S4096x1, .i32⟩ : BufTy).Contents (Elt F) → (⟨S4096x1, .i32⟩ : BufTy).Contents (Elt F) → (⟨S4096x1, .i32⟩ : BufTy).Contents (Elt F)),
    StableHlo.ternary main_v10 main_v12 main_v8 main_v13 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)),
    StableHlo.nullary main_c_3 (constantI S_ 32 0#32),
    StableHlo.unary main_c_3 main_v14 (broadcastInDim S4096x2048 ![] bcast_S_S4096x2048 : (⟨S_, .i32⟩ : BufTy).Contents (Elt F) → (⟨S4096x2048, .i32⟩ : BufTy).Contents (Elt F)),
    StableHlo.binary main_v6 main_v14 main_v15 (cmpi .slt : (⟨S4096x2048, .i32⟩ : BufTy).Contents (Elt F) → (⟨S4096x2048, .i32⟩ : BufTy).Contents (Elt F) → (⟨S4096x2048, .i1⟩ : BufTy).Contents (Elt F)),
    StableHlo.nullary main_c_4 (constantI S_ 32 4096#32),
    StableHlo.unary main_c_4 main_v16 (broadcastInDim S4096x2048 ![] bcast_S_S4096x2048 : (⟨S_, .i32⟩ : BufTy).Contents (Elt F) → (⟨S4096x2048, .i32⟩ : BufTy).Contents (Elt F)),
    StableHlo.binary main_v6 main_v16 main_v17 (addi : (⟨S4096x2048, .i32⟩ : BufTy).Contents (Elt F) → (⟨S4096x2048, .i32⟩ : BufTy).Contents (Elt F) → (⟨S4096x2048, .i32⟩ : BufTy).Contents (Elt F)),
    StableHlo.ternary main_v15 main_v17 main_v6 main_v18 (select : (⟨S4096x2048, .i1⟩ : BufTy).Contents (Elt F) → (⟨S4096x2048, .i32⟩ : BufTy).Contents (Elt F) → (⟨S4096x2048, .i32⟩ : BufTy).Contents (Elt F) → (⟨S4096x2048, .i32⟩ : BufTy).Contents (Elt F)),
    StableHlo.unary main_v13 main_v19 (broadcastInDim S4096x2048 ![0, 1] bcast_S4096x1_S4096x2048_0_1 : (⟨S4096x1, .i32⟩ : BufTy).Contents (Elt F) → (⟨S4096x2048, .i32⟩ : BufTy).Contents (Elt F)),
    StableHlo.unary main_v19 main_v20 (broadcastInDim S4096x2048x1 ![0, 1] bcast_S4096x2048_S4096x2048x1_0_1 : (⟨S4096x2048, .i32⟩ : BufTy).Contents (Elt F) → (⟨S4096x2048x1, .i32⟩ : BufTy).Contents (Elt F)),
    StableHlo.unary main_v18 main_v21 (broadcastInDim S4096x2048x1 ![0, 1] bcast_S4096x2048_S4096x2048x1_0_1 : (⟨S4096x2048, .i32⟩ : BufTy).Contents (Elt F) → (⟨S4096x2048x1, .i32⟩ : BufTy).Contents (Elt F)),
    StableHlo.binary main_v20 main_v21 main_v22 ((fun a b => concatenate S4096x2048x2 2 [⟨S4096x2048x1, a⟩, ⟨S4096x2048x1, b⟩] concatenates_S4096x2048x1_S4096x2048x1_S4096x2048x2_d2) : (⟨S4096x2048x1, .i32⟩ : BufTy).Contents (Elt F) → (⟨S4096x2048x1, .i32⟩ : BufTy).Contents (Elt F) → (⟨S4096x2048x2, .i32⟩ : BufTy).Contents (Elt F)),
    StableHlo.ternary main_v7 main_v22 main_arg2 main_v23 ((fun x i u => Host.scatter scatter_S8192x4096_S4096x2048x2_S4096x2048_n_01_01_2 (fun _ b => b) x i u) : (⟨S8192x4096, .f32⟩ : BufTy).Contents (Elt F) → (⟨S4096x2048x2, .i32⟩ : BufTy).Contents (Elt F) → (⟨S4096x2048, .f32⟩ : BufTy).Contents (Elt F) → (⟨S8192x4096, .f32⟩ : BufTy).Contents (Elt F)),
    StableHlo.nullary main_c_5 (constantI S_ 32 0#32),
    StableHlo.TRef.unary (.of main_c_5 : StableHlo.TRef sig ⟨S_, .i32⟩) (.of main_call1_v0 : StableHlo.TRef sig ⟨S_, .i32⟩) id,
    StableHlo.TRef.binary (.of main_arg1 : StableHlo.TRef sig ⟨S2048, .i32⟩) (.of main_call1_v0 : StableHlo.TRef sig ⟨S_, .i32⟩) (.of main_v24 : StableHlo.TRef sig ⟨S2048, .i32⟩) (fun x v => pad S2048 ![0] ![0] ![0] x v pads_S2048_S2048_000 h_S_),
    StableHlo.nullary main_c_6 (constantI S_ 32 0#32),
    StableHlo.TRef.unary (.of main_c_6 : StableHlo.TRef sig ⟨S_, .i32⟩) (.of main_call2_v0 : StableHlo.TRef sig ⟨S_, .f32⟩) (sitofp .f32),
    StableHlo.TRef.binary (.of main_arg0 : StableHlo.TRef sig ⟨S4096x2048, .f32⟩) (.of main_call2_v0 : StableHlo.TRef sig ⟨S_, .f32⟩) (.of main_v25 : StableHlo.TRef sig ⟨S4096x2048, .f32⟩) (fun x v => pad S4096x2048 ![0, 0] ![0, 0] ![0, 0] x v pads_S4096x2048_S4096x2048_000_000 h_S_),
    StableHlo.nullary main_cst_7 (constant S_ .f32 0x00000000#32),
    StableHlo.unary main_cst_7 main_v26 (broadcastInDim S4096x4096 ![] bcast_S_S4096x4096 : (⟨S_, .f32⟩ : BufTy).Contents (Elt F) → (⟨S4096x4096, .f32⟩ : BufTy).Contents (Elt F)),
    StableHlo.unary main_v25 main_v27 ((transpose S2048x4096 [1, 0] · transposes_S4096x2048_S2048x4096_1_0) : (⟨S4096x2048, .f32⟩ : BufTy).Contents (Elt F) → (⟨S2048x4096, .f32⟩ : BufTy).Contents (Elt F)),
    StableHlo.nullary main_c_8 (constantI S_ 32 0#32),
    StableHlo.unary main_c_8 main_v28 (broadcastInDim S2048 ![] bcast_S_S2048 : (⟨S_, .i32⟩ : BufTy).Contents (Elt F) → (⟨S2048, .i32⟩ : BufTy).Contents (Elt F)),
    StableHlo.binary main_v24 main_v28 main_v29 (cmpi .slt : (⟨S2048, .i32⟩ : BufTy).Contents (Elt F) → (⟨S2048, .i32⟩ : BufTy).Contents (Elt F) → (⟨S2048, .i1⟩ : BufTy).Contents (Elt F)),
    StableHlo.nullary main_c_9 (constantI S_ 32 4096#32),
    StableHlo.unary main_c_9 main_v30 (broadcastInDim S2048 ![] bcast_S_S2048 : (⟨S_, .i32⟩ : BufTy).Contents (Elt F) → (⟨S2048, .i32⟩ : BufTy).Contents (Elt F)),
    StableHlo.binary main_v24 main_v30 main_v31 (addi : (⟨S2048, .i32⟩ : BufTy).Contents (Elt F) → (⟨S2048, .i32⟩ : BufTy).Contents (Elt F) → (⟨S2048, .i32⟩ : BufTy).Contents (Elt F)),
    StableHlo.ternary main_v29 main_v31 main_v24 main_v32 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v32 main_v33 (broadcastInDim S2048x1 ![0] bcast_S2048_S2048x1_0 : (⟨S2048, .i32⟩ : BufTy).Contents (Elt F) → (⟨S2048x1, .i32⟩ : BufTy).Contents (Elt F)),
    StableHlo.ternary main_v26 main_v33 main_v27 main_v34 ((fun x i u => Host.scatterAdd scatter_S4096x4096_S2048x1_S2048x4096_1_0_0_1 x i u) : (⟨S4096x4096, .f32⟩ : BufTy).Contents (Elt F) → (⟨S2048x1, .i32⟩ : BufTy).Contents (Elt F) → (⟨S2048x4096, .f32⟩ : BufTy).Contents (Elt F) → (⟨S4096x4096, .f32⟩ : BufTy).Contents (Elt F)),
    StableHlo.binary main_v23 main_v34 main_v35 ((fun l r => Host.dotGeneral dot_S8192x4096_S4096x4096_S8192x4096_1_0_0_1_n_n none l r) : (⟨S8192x4096, .f32⟩ : BufTy).Contents (Elt F) → (⟨S4096x4096, .f32⟩ : BufTy).Contents (Elt F) → (⟨S8192x4096, .f32⟩ : BufTy).Contents (Elt F)) ]

set_option maxRecDepth 4096 in
/-- The program is that straight line: the helper functions unfolded at their calls. -/
theorem main_eq (c : Dev nD) : main (F := F) c = seq ops := by
  simp only [main, fn_floor_divide.body, fn_where.body, fn_pad.body, fn_pad_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches this device's buffers only. -/
theorem ops_sub : (ops : List (HloOp τ sig (Elt F))).Forall fun op => op.bufs ⊆ tcRefs τ sig :=
  ⟨
    StableHlo.nullary_bufs_sub .., StableHlo.nullary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub .., StableHlo.unary_bufs_sub .., StableHlo.binary_bufs_sub ..,
    StableHlo.ternary_bufs_sub .., StableHlo.nullary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.unary_bufs_sub .., StableHlo.unary_bufs_sub .., StableHlo.binary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.ternary_bufs_sub .., StableHlo.binary_bufs_sub ..⟩

/-- Every buffer after the run is the operations' value for it, computed from the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.Head.lean ====
/-
  The two matrices the kernel's region multiplies.

  Before the region, the program's host operations build a matrix W (8192 x 4096: the compressed weight scattered into
  zeros) in one buffer and a matrix B (4096 x 4096: the activation's columns added into zeros) in another, and then pass
  each through a change of float format into the buffers that the region's first two windows stage. So the array window 0
  stages is the format change of W, and the array window 1 stages is the format change of B. Nothing here looks inside
  the operations that build W and B.
-/
import proofs.«172750_j17051020165438_1_alg».proof.Proof.Gen.KernelIdeal.Frame.Runs
import Idealize.ShloMosaic.Lib.StableHlo.Run

set_option maxRecDepth 65536

noncomputable section

namespace Cert.KernelIdeal.Head

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

attribute [local irreducible] Host.scatter Host.scatterAdd pad transpose concatenate broadcastInDim iotaInDim Host.divsi Host.remsi in
set_option maxHeartbeats 2000000 in
/-- The array window 0 stages is W, as the host operations left it, through the change of float format. -/
theorem left_matrix (c : Dev nD) :
    (V m c main_v35 : (⟨S8192x4096, .bf16⟩ : BufTy).Contents (Elt F))
      = truncf .bf16 (V m c main_v23 : (⟨S8192x4096, .f32⟩ : BufTy).Contents (Elt F)) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results_simp

attribute [local irreducible] Host.scatter Host.scatterAdd pad transpose concatenate broadcastInDim iotaInDim Host.divsi Host.remsi in
set_option maxHeartbeats 2000000 in
/-- The array window 1 stages is B, as the host operations left it, through the change of float format. -/
theorem right_matrix (c : Dev nD) :
    (V m c main_v36 : (⟨S4096x4096, .bf16⟩ : BufTy).Contents (Elt F))
      = truncf .bf16 (V m c main_v34 : (⟨S4096x4096, .f32⟩ : BufTy).Contents (Elt F)) bitsLt_bf16_f32 := by
  dsimp only [V]
  simp only [hostOps0, hostOps0_1, hostOps0_2, hostOps0_3, hostOps0_4, hostOps0_5, hostOps0_6, List.flatten_cons,
    List.flatten_nil, List.append_nil, List.cons_append, List.nil_append]
  after_results_simp

end Cert.KernelIdeal.Head

end
-- ==== Proof.Agree.lean ====
/-
  Both programs multiply the same two matrices.

  The reference builds its W and B from its arguments by the same host operations, in the same order, as the kernel's
  program builds the W and B that its region later reads. When the two programs start from memories that agree on the
  arguments, each operation therefore sees equal operands in both, and the W (and the B) of the one is the W (and the
  B) of the other. Neither matrix is opened: the operations are compared one for one, the scatters included. The
  reference's result buffer holds the host's matrix product of its own W and B.
-/
import proofs.«172750_j17051020165438_1_alg».proof.Proof.RRun
import proofs.«172750_j17051020165438_1_alg».proof.Proof.Head

set_option maxRecDepth 65536

noncomputable section

namespace Cert.Agree

open Idealize.ShloMosaic Idealize.ShloMosaic.TcCoe Idealize.SL.Sem Idealize.ShloMosaic.StableHlo

variable {F : FTy → Type} [FloatOps F]

/-- Two arrays of one shape joined along an axis: the host's `concatenate` of a two-element list, with the two arrays
    as plain arguments. -/
def cat2 {α : Type} (S : Shape) (d : Fin S.rank) (s : Shape) (a b : s.Idx → α) (h : Shape.Concatenates [s, s] S d) : S.Idx → α :=
  concatenate S d [⟨s, a⟩, ⟨s, b⟩] h

theorem concatenate_pair {α : Type} (S : Shape) (d : Fin S.rank) (s : Shape) (a b : s.Idx → α) (h : Shape.Concatenates [s, s] S d) :
    concatenate S d [⟨s, a⟩, ⟨s, b⟩] h = cat2 S d s a b h := rfl

attribute [local irreducible] Host.scatter Host.scatterAdd pad transpose concatenate broadcastInDim iotaInDim Host.divsi Host.remsi in
set_option maxHeartbeats 4000000 in
/-- The reference's W is the W the kernel's region finds, when the arguments that W depends on agree. -/
theorem weight_agree (mk : (ℓ : Loc Cert.KernelIdeal.nD Cert.KernelIdeal.τ Cert.KernelIdeal.sig) → Buf (Elt F) ℓ)
    (mr : (ℓ : Loc Cert.ReferenceIdeal.nD Cert.ReferenceIdeal.τ Cert.ReferenceIdeal.sig) → Buf (Elt F) ℓ) (c : Dev Cert.KernelIdeal.nD)
    (h2 : mr ((c.tc : Thread Cert.ReferenceIdeal.nD Cert.ReferenceIdeal.τ).loc Cert.ReferenceIdeal.main_arg2) = mk ((c.tc : Thread Cert.KernelIdeal.nD Cert.KernelIdeal.τ).loc Cert.KernelIdeal.main_arg2))
    (h3 : mr ((c.tc : Thread Cert.ReferenceIdeal.nD Cert.ReferenceIdeal.τ).loc Cert.ReferenceIdeal.main_arg3) = mk ((c.tc : Thread Cert.KernelIdeal.nD Cert.KernelIdeal.τ).loc Cert.KernelIdeal.main_arg3))
    (h4 : mr ((c.tc : Thread Cert.ReferenceIdeal.nD Cert.ReferenceIdeal.τ).loc Cert.ReferenceIdeal.main_arg4) = mk ((c.tc : Thread Cert.KernelIdeal.nD Cert.KernelIdeal.τ).loc Cert.KernelIdeal.main_arg4)) :
    (after (Cert.ReferenceIdeal.RefRun.ops (F := F)) (launchContents mr c) (Cert.ReferenceIdeal.main_v23 : DevRef Cert.ReferenceIdeal.τ Cert.ReferenceIdeal.sig)
        : (⟨Cert.KernelIdeal.S8192x4096, .f32⟩ : BufTy).Contents (Elt F))
      = (Cert.KernelIdeal.Gen.V mk c Cert.KernelIdeal.main_v23 : (⟨Cert.KernelIdeal.S8192x4096, .f32⟩ : BufTy).Contents (Elt F)) := by
  have e2 : launchContents mr c (Proc.devRef .tc Cert.ReferenceIdeal.main_arg2) = mk (c, Proc.devRef .tc Cert.KernelIdeal.main_arg2) := h2
  have e3 : launchContents mr c (Proc.devRef .tc Cert.ReferenceIdeal.main_arg3) = mk (c, Proc.devRef .tc Cert.KernelIdeal.main_arg3) := h3
  have e4 : launchContents mr c (Proc.devRef .tc Cert.ReferenceIdeal.main_arg4) = mk (c, Proc.devRef .tc Cert.KernelIdeal.main_arg4) := h4
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons,
    List.flatten_nil, List.append_nil, List.cons_append, List.nil_append]
  after_results_simp
  simp only [concatenate_pair]
  after_results_simp
  rw [e2, e3, e4]
  rfl

attribute [local irreducible] Host.scatter Host.scatterAdd pad transpose concatenate broadcastInDim iotaInDim Host.divsi Host.remsi in
set_option maxHeartbeats 4000000 in
/-- The reference's B is the B the kernel's region finds, when the arguments that B depends on agree. -/
theorem activation_agree (mk : (ℓ : Loc Cert.KernelIdeal.nD Cert.KernelIdeal.τ Cert.KernelIdeal.sig) → Buf (Elt F) ℓ)
    (mr : (ℓ : Loc Cert.ReferenceIdeal.nD Cert.ReferenceIdeal.τ Cert.ReferenceIdeal.sig) → Buf (Elt F) ℓ) (c : Dev Cert.KernelIdeal.nD)
    (h0 : mr ((c.tc : Thread Cert.ReferenceIdeal.nD Cert.ReferenceIdeal.τ).loc Cert.ReferenceIdeal.main_arg0) = mk ((c.tc : Thread Cert.KernelIdeal.nD Cert.KernelIdeal.τ).loc Cert.KernelIdeal.main_arg0))
    (h1 : mr ((c.tc : Thread Cert.ReferenceIdeal.nD Cert.ReferenceIdeal.τ).loc Cert.ReferenceIdeal.main_arg1) = mk ((c.tc : Thread Cert.KernelIdeal.nD Cert.KernelIdeal.τ).loc Cert.KernelIdeal.main_arg1)) :
    (after (Cert.ReferenceIdeal.RefRun.ops (F := F)) (launchContents mr c) (Cert.ReferenceIdeal.main_v34 : DevRef Cert.ReferenceIdeal.τ Cert.ReferenceIdeal.sig)
        : (⟨Cert.KernelIdeal.S4096x4096, .f32⟩ : BufTy).Contents (Elt F))
      = (Cert.KernelIdeal.Gen.V mk c Cert.KernelIdeal.main_v34 : (⟨Cert.KernelIdeal.S4096x4096, .f32⟩ : BufTy).Contents (Elt F)) := by
  have e0 : launchContents mr c (Proc.devRef .tc Cert.ReferenceIdeal.main_arg0) = mk (c, Proc.devRef .tc Cert.KernelIdeal.main_arg0) := h0
  have e1 : launchContents mr c (Proc.devRef .tc Cert.ReferenceIdeal.main_arg1) = mk (c, Proc.devRef .tc Cert.KernelIdeal.main_arg1) := h1
  dsimp only [Cert.KernelIdeal.Gen.V]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, List.flatten_cons,
    List.flatten_nil, List.append_nil, List.cons_append, List.nil_append]
  after_results_simp
  rw [e0, e1]
  rfl

attribute [local irreducible] Host.scatter Host.scatterAdd pad transpose concatenate broadcastInDim iotaInDim Host.divsi Host.remsi in
set_option maxHeartbeats 4000000 in
/-- The reference's result buffer holds the host's product of its W and its B. -/
theorem reference_result (V : Valuation Cert.ReferenceIdeal.τ Cert.ReferenceIdeal.sig (Elt F)) :
    after (Cert.ReferenceIdeal.RefRun.ops (F := F)) V (Cert.ReferenceIdeal.main_v35 : DevRef Cert.ReferenceIdeal.τ Cert.ReferenceIdeal.sig)
      = Host.dotGeneral Cert.ReferenceIdeal.dot_S8192x4096_S4096x4096_S8192x4096_1_0_0_1_n_n none
          (after (Cert.ReferenceIdeal.RefRun.ops (F := F)) V (Cert.ReferenceIdeal.main_v23 : DevRef Cert.ReferenceIdeal.τ Cert.ReferenceIdeal.sig))
          (after (Cert.ReferenceIdeal.RefRun.ops (F := F)) V (Cert.ReferenceIdeal.main_v34 : DevRef Cert.ReferenceIdeal.τ Cert.ReferenceIdeal.sig)) := by
  after_results_simp

end Cert.Agree

end
-- ==== Proof.Bridge.lean ====
/-
  The two programs' results are one function of the arguments.

  The kernel's result array is the matrix product, entry (r, c) the sum over k < 4096 of X (r, k) * Y (k, c), of the two
  arrays X, Y its region reads; these are W and B passed through a change of float format, which on the extended reals
  changes nothing. The reference's result is the host's product of its own W and B, which is the same sum; and its W
  and B are the kernel's. The kernel takes that sum in four blocks of 1024 and the host all at once: regrouping a sum
  needs only that addition is associative and commutative, so the precondition (finite inputs) is never used.
  No host operation writes an argument buffer, so the reference leaves its arguments as it found them.
-/
import proofs.«172750_j17051020165438_1_alg».proof.Proof.KCover
import proofs.«172750_j17051020165438_1_alg».proof.Proof.Agree

set_option maxRecDepth 65536

noncomputable section

namespace Cert.Bridge

open Idealize.ShloMosaic Idealize.ShloMosaic.TcCoe Idealize.ShloMosaic.ValueIdx Idealize.SL.Sem Idealize.ShloMosaic.StableHlo
open Cert.Spec

/-- The host's product of two matrices is their product, entry by entry. -/
theorem host_product (X : (⟨2, ![8192, 4096]⟩ : Shape).Idx → EReal) (Y : (⟨2, ![4096, 4096]⟩ : Shape).Idx → EReal) :
    Host.dotGeneral (F := Ideal) (φ₁ := .f32) (φ₂ := .f32) Cert.ReferenceIdeal.dot_S8192x4096_S4096x4096_S8192x4096_1_0_0_1_n_n none X Y
      = matProd X Y := by
  funext j
  obtain ⟨r, cc, rfl⟩ : ∃ (r : Fin 8192) (cc : Fin 4096), j = ix2 r cc := ⟨j 0, j 1, eq_ix2 j⟩
  exact (PlainDot.dotGeneral_apply Cert.ReferenceIdeal.dot_S8192x4096_S4096x4096_S8192x4096_1_0_0_1_n_n rfl rfl rfl rfl rfl rfl rfl rfl
    none .single X Y r cc).trans (matProd_apply X Y r cc).symm

/-- On the extended reals a change of float format changes no entry, so the product of the two changed matrices is
    the product of the matrices. -/
theorem matProd_format (X : (⟨2, ![8192, 4096]⟩ : Shape).Idx → EReal) (Y : (⟨2, ![4096, 4096]⟩ : Shape).Idx → EReal)
    (h : FTy.bf16.bits < FTy.f32.bits) :
    matProd (truncf (F := Ideal) (φ := .f32) .bf16 X h) (truncf (F := Ideal) (φ := .f32) .bf16 Y h) = matProd X Y := rfl

variable {F : FTy → Type} [FloatOps F]

attribute [local irreducible] Host.scatter Host.scatterAdd pad transpose concatenate broadcastInDim iotaInDim Host.divsi Host.remsi in
set_option maxHeartbeats 4000000 in
theorem kept_arg0 (V : Valuation Cert.ReferenceIdeal.τ Cert.ReferenceIdeal.sig (Elt F)) :
    after (Cert.ReferenceIdeal.RefRun.ops (F := F)) V (Cert.ReferenceIdeal.main_arg0 : DevRef Cert.ReferenceIdeal.τ Cert.ReferenceIdeal.sig) = V (Cert.ReferenceIdeal.main_arg0 : DevRef Cert.ReferenceIdeal.τ Cert.ReferenceIdeal.sig) := by
  after_results_simp

attribute [local irreducible] Host.scatter Host.scatterAdd pad transpose concatenate broadcastInDim iotaInDim Host.divsi Host.remsi in
set_option maxHeartbeats 4000000 in
theorem kept_arg1 (V : Valuation Cert.ReferenceIdeal.τ Cert.ReferenceIdeal.sig (Elt F)) :
    after (Cert.ReferenceIdeal.RefRun.ops (F := F)) V (Cert.ReferenceIdeal.main_arg1 : DevRef Cert.ReferenceIdeal.τ Cert.ReferenceIdeal.sig) = V (Cert.ReferenceIdeal.main_arg1 : DevRef Cert.ReferenceIdeal.τ Cert.ReferenceIdeal.sig) := by
  after_results_simp

attribute [local irreducible] Host.scatter Host.scatterAdd pad transpose concatenate broadcastInDim iotaInDim Host.divsi Host.remsi in
set_option maxHeartbeats 4000000 in
theorem kept_arg2 (V : Valuation Cert.ReferenceIdeal.τ Cert.ReferenceIdeal.sig (Elt F)) :
    after (Cert.ReferenceIdeal.RefRun.ops (F := F)) V (Cert.ReferenceIdeal.main_arg2 : DevRef Cert.ReferenceIdeal.τ Cert.ReferenceIdeal.sig) = V (Cert.ReferenceIdeal.main_arg2 : DevRef Cert.ReferenceIdeal.τ Cert.ReferenceIdeal.sig) := by
  after_results_simp

attribute [local irreducible] Host.scatter Host.scatterAdd pad transpose concatenate broadcastInDim iotaInDim Host.divsi Host.remsi in
set_option maxHeartbeats 4000000 in
theorem kept_arg3 (V : Valuation Cert.ReferenceIdeal.τ Cert.ReferenceIdeal.sig (Elt F)) :
    after (Cert.ReferenceIdeal.RefRun.ops (F := F)) V (Cert.ReferenceIdeal.main_arg3 : DevRef Cert.ReferenceIdeal.τ Cert.ReferenceIdeal.sig) = V (Cert.ReferenceIdeal.main_arg3 : DevRef Cert.ReferenceIdeal.τ Cert.ReferenceIdeal.sig) := by
  after_results_simp

attribute [local irreducible] Host.scatter Host.scatterAdd pad transpose concatenate broadcastInDim iotaInDim Host.divsi Host.remsi in
set_option maxHeartbeats 4000000 in
theorem kept_arg4 (V : Valuation Cert.ReferenceIdeal.τ Cert.ReferenceIdeal.sig (Elt F)) :
    after (Cert.ReferenceIdeal.RefRun.ops (F := F)) V (Cert.ReferenceIdeal.main_arg4 : DevRef Cert.ReferenceIdeal.τ Cert.ReferenceIdeal.sig) = V (Cert.ReferenceIdeal.main_arg4 : DevRef Cert.ReferenceIdeal.τ Cert.ReferenceIdeal.sig) := by
  after_results_simp

/-- The reference's result, from a memory that agrees with the kernel's on the arguments, is the kernel's result. -/
theorem reference_value (m : (ℓ : Loc Cert.KernelIdeal.nD Cert.KernelIdeal.τ Cert.KernelIdeal.sig) → Buf (Elt Ideal) ℓ)
    (mr : (ℓ : Loc Cert.ReferenceIdeal.nD Cert.ReferenceIdeal.τ Cert.ReferenceIdeal.sig) → Buf (Elt Ideal) ℓ) (c : Dev Cert.KernelIdeal.nD)
    (h0 : mr ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : mr ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : mr ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : mr ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : mr ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    after (Cert.ReferenceIdeal.RefRun.ops (F := Ideal)) (launchContents mr c) (Cert.ReferenceIdeal.main_v35 : DevRef Cert.ReferenceIdeal.τ Cert.ReferenceIdeal.sig)
      = Cert.KernelIdeal.Body.result m c := by
  rw [Cert.Agree.reference_result, Cert.Agree.weight_agree m mr c h2 h3 h4, Cert.Agree.activation_agree m mr c h0 h1,
    host_product]
  show matProd _ _ = matProd (Cert.KernelIdeal.Gen.V m c Cert.KernelIdeal.main_v35) (Cert.KernelIdeal.Gen.V m c Cert.KernelIdeal.main_v36)
  rw [Cert.KernelIdeal.Head.left_matrix m c, Cert.KernelIdeal.Head.right_matrix m c]
  exact (matProd_format _ _ _).symm

end Cert.Bridge

end
-- ==== Proof.lean ====
/-
  A sparse-times-sparse linear layer: both programs decompress a compressed weight into a dense 8192 x 4096 matrix W
  and a row-sparse activation into a dense 4096 x 4096 matrix B by the same host operations, and then multiply them.

  The kernel multiplies in blocks. Its grid has 8 x 4 x 4 points (i, j, kk); point (i, j, kk) adds the product of block
  (i, kk) of W with block (kk, j) of B (blocks 1024 x 1024) into an accumulator that is reset to zero at kk = 0 and copied
  to block (i, j) of the result at kk = 3. With exact arithmetic on the extended reals, entry (r, c) of the result is
      0 + sum over kk < 4 of (sum over q < 1024 of W (r, 1024 kk + q) * B (1024 kk + q, c)),
  which is the sum over k < 4096 of W (r, k) * B (k, c): the same products, grouped four blocks at a time. The reference
  forms that sum in one host matrix product. The two groupings agree because addition on the extended reals is
  associative and commutative; no product is moved across a sum, so nothing depends on the inputs being finite. The
  kernel feeds its matrices through a narrower float format first, which is the identity on the extended reals.

  Each program runs to completion without fault and leaves its arguments unchanged; the idealized kernel is the
  kernel's own text read with exact arithmetic (no operation was rewritten), and the two idealized programs end with
  equal results.
-/
import proofs.«172750_j17051020165438_1_alg».proof.Defs
import proofs.«172750_j17051020165438_1_alg».proof.Proof.Gen.Kernel
import proofs.«172750_j17051020165438_1_alg».proof.Proof.Gen.Kernel.Frame
import proofs.«172750_j17051020165438_1_alg».proof.Proof.Gen.KernelIdeal
import proofs.«172750_j17051020165438_1_alg».proof.Proof.Gen.KernelIdeal.Frame
import proofs.«172750_j17051020165438_1_alg».proof.Proof.Gen.KernelIdeal.Value
import proofs.«172750_j17051020165438_1_alg».proof.Proof.Gen.ReferenceIdeal
import proofs.«172750_j17051020165438_1_alg».proof.Proof.Gen.Pre_finite_inputs
import proofs.«172750_j17051020165438_1_alg».proof.Proof.Bridge
import Idealize.ShloMosaic.Adequacy
import Idealize.ShloMosaic.Init

noncomputable section

namespace Cert.Proof

open Idealize.ShloMosaic Idealize.ShloMosaic.TcCoe Idealize.SL.Sem

/-- The kernel runs to completion and leaves its arguments unchanged. -/
theorem frame_kernel : Cert.frame_Kernel := fun m ρ _ => Cert.Kernel.Gen.frame m ρ

/-- So does the kernel read with exact arithmetic. -/
theorem frame_kernelIdeal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono
    (fun _ h c => ⟨(h c Cert.ReferenceIdeal.main_arg0).trans (Cert.Bridge.kept_arg0 _),
      (h c Cert.ReferenceIdeal.main_arg1).trans (Cert.Bridge.kept_arg1 _),
      (h c Cert.ReferenceIdeal.main_arg2).trans (Cert.Bridge.kept_arg2 _),
      (h c Cert.ReferenceIdeal.main_arg3).trans (Cert.Bridge.kept_arg3 _),
      (h c Cert.ReferenceIdeal.main_arg4).trans (Cert.Bridge.kept_arg4 _)⟩)
    (Cert.ReferenceIdeal.RefRun.run_all m ρ)

/-- No operation of the kernel was rewritten when it was read with exact arithmetic. -/
theorem preserves : Cert.preserves_Kernel_KernelIdeal := trivial

/-- From memories that agree on the arguments, both programs end with the product of W and B in their result. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ?_) (Cert.ReferenceIdeal.RefRun.run_all m' ρ')
  obtain ⟨a0, a1, a2, a3, a4⟩ := hagree c
  exact ⟨(h c Cert.ReferenceIdeal.main_v35).trans (Cert.Bridge.reference_value m m' c a0 a1 a2 a3 a4),
      (h c Cert.ReferenceIdeal.main_arg0).trans (Cert.Bridge.kept_arg0 _),
      (h c Cert.ReferenceIdeal.main_arg1).trans (Cert.Bridge.kept_arg1 _),
      (h c Cert.ReferenceIdeal.main_arg2).trans (Cert.Bridge.kept_arg2 _),
      (h c Cert.ReferenceIdeal.main_arg3).trans (Cert.Bridge.kept_arg3 _),
      (h c Cert.ReferenceIdeal.main_arg4).trans (Cert.Bridge.kept_arg4 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
